-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.BinarizedLinear.lean ====
/-
  The binarized linear layer as ONE function of its two arrays, over the extended reals.

  For activations `x` (8192 rows of 2048 entries) and weights `w` (2048 rows of 2048 entries), output entry `(b, o)` is
      sign (∑ k, x[b, k] · sign w[o, k]),
  the sign of the inner product of row `b` of the activations with the entrywise signs of row `o` of the weights.
  `sign` is the order's: `-1` below zero (and at `⊥`), `0` at zero, `1` above zero (and at `⊤`).

  Both programs compute this function with the products in this same order (activation on the left, signed weight on
  the right, `k` running over the shared axis), so nothing of the extended reals' arithmetic is used beyond reading each
  operation at an index: no distributivity, no cancellation, hence no finiteness of the inputs.
-/
import Idealize.ShloMosaic.PureOps.Ideal.Laws
import Idealize.ShloMosaic.Lib.ValueIdx

noncomputable section

open scoped BigOperators

namespace Cert.BinarizedLinear

open Idealize.ShloMosaic Idealize.ShloMosaic.ValueIdx

/-- The shape of the activations and of the result: 8192 rows, 2048 columns. -/
abbrev Act : Shape := ⟨2, ![8192, 2048]⟩
/-- The shape of the weights: 2048 output rows, 2048 columns. -/
abbrev Wgt : Shape := ⟨2, ![2048, 2048]⟩

/-- Entry `(b, o)` of the layer: the sign of row `b` of `x` against the signs of row `o` of `w`. -/
def entry (x : Act.Idx → EReal) (w : Wgt.Idx → EReal) (b : Fin 8192) (o : Fin 2048) : EReal :=
  Ideal.sign (∑ k : Fin 2048, x (ix2 b k) * Ideal.sign (w (ix2 o k)))

/-- The whole result array: entry `(i 0, i 1)` at every index `i`. -/
def layer (x : Act.Idx → EReal) (w : Wgt.Idx → EReal) : Act.Idx → EReal :=
  fun i => entry x w (i 0) (i 1)

theorem layer_apply (x : Act.Idx → EReal) (w : Wgt.Idx → EReal) (b : Fin 8192) (o : Fin 2048) :
    layer x w (ix2 b o) = entry x w b o := rfl

end Cert.BinarizedLinear

end
-- ==== Proof.ReferenceValue.lean ====
/-
  The reference computes the binarized linear layer.

  Its three host operations are: the signs of the weights; the product of the activations with those signs, contracting
  the second axis of both (entry `(b, o)` is `∑ k, x[b, k] · sign w[o, k]`); and the sign of every entry of that product.
  Read at an index, operation by operation, that is `Cert.BinarizedLinear.layer` of the two argument arrays: the
  operand indices of the product at output entry `i` and position `k` are `(i 0, k)` on the left and `(i 1, k)` on the right.
-/
import proofs.«170826_j6493990552022_2_alg».proof.Proof.Gen.ReferenceIdeal.Read
import proofs.«170826_j6493990552022_2_alg».proof.Proof.BinarizedLinear

noncomputable section

open scoped BigOperators

namespace Cert.ReferenceIdeal.RefValue

open Cert.ReferenceIdeal Cert.ReferenceIdeal.Gen Idealize.ShloMosaic Idealize.ShloMosaic.ValueIdx

/-- The product's left operand index at output entry `i`, position `k`: row `i 0`, column `k`. -/
theorem left_index (i : S8192x2048.Idx) (k : Fin 2048) : Read.lidx_main_v1 i k = ix2 (i 0 : Fin 8192) k :=
  funext fun d => Fin.ext (by match d with | ⟨0, _⟩ => rfl | ⟨1, _⟩ => rfl)

/-- Its right operand index: row `i 1` of the signed weights, column `k`. -/
theorem right_index (i : S8192x2048.Idx) (k : Fin 2048) : Read.ridx_main_v1 i k = ix2 (i 1 : Fin 2048) k :=
  funext fun d => Fin.ext (by match d with | ⟨0, _⟩ => rfl | ⟨1, _⟩ => rfl)

/-- The reference's result, as a term of its two arguments, is the layer. -/
theorem result_eq (x : FVec Ideal S8192x2048 .f32) (w : FVec Ideal S2048x2048 .f32) :
    Host.sign (F := Ideal) (Host.dotGeneral dot_S8192x2048_S2048x2048_S8192x2048_1_1_0_0_n_n none x (Host.sign (F := Ideal) w)) = Cert.BinarizedLinear.layer x w := by
  rw [Read.val_main_v2_eq]
  funext i
  rw [Read.val_main_v2_apply, Read.val_main_v1_apply]
  simp only [Read.val_main_v0_apply, Ideal.hostUnary_sign_def, left_index, right_index]
  rfl

end Cert.ReferenceIdeal.RefValue

end
-- ==== Proof.BlockValue.lean ====
/-
  What the kernel body stores for one block of 512 rows, read at an entry.

  The body takes a block `a` of 512 activation rows and the resident table `s` of 2048 rows (which the host filled
  with the signs of the weights), multiplies them contracting the shared 2048-long axis into a zero accumulator, and
  stores the sign of each product entry — written as "where `|v| > 0` take `±1` by `v < 0`, else `v` itself",
  which is the order's sign at every extended real. So entry `(p, q)` of what it stores is
      sign (∑ k, a[p, k] · s[q, k]).
  The narrowing of the activations to sixteen bits and the shape cast of the table onto its own shape are identities here.
-/
import proofs.«170826_j6493990552022_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-! ## The product's operand indices: row of the output and contraction position on the left, column of the output
    and contraction position on the right (the right operand is contracted along ITS second axis too: `a · sᵀ`). -/

theorem lhs_row (j : S512x2048.Idx) (r : dot_S512x2048_S2048x2048_S512x2048_1_1_0_0_n_n.contr.Idx) :
    (dot_S512x2048_S2048x2048_S512x2048_1_1_0_0_n_n.lhsIdx j r 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_pos (j : S512x2048.Idx) (r : dot_S512x2048_S2048x2048_S512x2048_1_1_0_0_n_n.contr.Idx) :
    (dot_S512x2048_S2048x2048_S512x2048_1_1_0_0_n_n.lhsIdx j r 1).val = (r ⟨0, by decide⟩).val :=
  dot_S512x2048_S2048x2048_S512x2048_1_1_0_0_n_n.lhsIdx_val_of_single rfl j r
theorem rhs_row (j : S512x2048.Idx) (r : dot_S512x2048_S2048x2048_S512x2048_1_1_0_0_n_n.contr.Idx) :
    (dot_S512x2048_S2048x2048_S512x2048_1_1_0_0_n_n.rhsIdx j r 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_pos (j : S512x2048.Idx) (r : dot_S512x2048_S2048x2048_S512x2048_1_1_0_0_n_n.contr.Idx) :
    (dot_S512x2048_S2048x2048_S512x2048_1_1_0_0_n_n.rhsIdx j r 1).val = (r ⟨0, by decide⟩).val :=
  dot_S512x2048_S2048x2048_S512x2048_1_1_0_0_n_n.rhsIdx_val_of_single rfl j r

/-- The block product into a zero accumulator, at entry `(p, q)`: the inner product of row `p` of the left operand
    with row `q` of the right one. -/
theorem product_apply (a : FVec Ideal S512x2048 .bf16) (s : FVec Ideal S2048x2048 .bf16) (p : Fin 512) (q : Fin 2048) :
    matmul dot_S512x2048_S2048x2048_S512x2048_1_1_0_0_n_n none a s (constant (F := Ideal) S512x2048 .f32 0x00000000#32) (ix2 p q)
      = ∑ k : Fin 2048, a (ix2 p k) * s (ix2 q k) := by
  show FloatOps.matmul dot_S512x2048_S2048x2048_S512x2048_1_1_0_0_n_n none a s (constant (F := Ideal) S512x2048 .f32 0x00000000#32) (ix2 p q) = _
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun d => Fin.ext (by
    match d with
    | ⟨0, _⟩ => exact lhs_row _ _
    | ⟨1, _⟩ => exact (lhs_pos _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun d => Fin.ext (by
    match d with
    | ⟨0, _⟩ => exact rhs_row _ _
    | ⟨1, _⟩ => exact (rhs_pos _ _).trans hk)
  rw [el, er]

/-- What the body stores is, entry by entry, the sign of the block product: the select over `|v| > 0` and `v < 0` is
    the order's sign on the extended reals. -/
theorem stored_eq_sign (v0 : Vec Ideal S512x2048 .f32) (v2 : Vec Ideal S2048x2048 .bf16) :
    k0_pay1 v0 v2 = fun i => Ideal.sign (matmul dot_S512x2048_S2048x2048_S512x2048_1_1_0_0_n_n none
      (truncf .bf16 (v0 : FVec Ideal S512x2048 .f32) bitsLt_bf16_f32)
      (shapeCast S2048x2048 (v2 : FVec Ideal S2048x2048 .bf16) shapeCasts_S2048x2048_S2048x2048 : FVec Ideal S2048x2048 .bf16)
      (constant (F := Ideal) S512x2048 .f32 0x00000000#32) i) :=
  funext fun _ => Ideal.jnp_sign_eq_sign_f32 _

/-- Entry `(p, q)` of what the body stores: `sign (∑ k, a[p, k] · s[q, k])` of its two loaded blocks. -/
theorem stored_apply (v0 : Vec Ideal S512x2048 .f32) (v2 : Vec Ideal S2048x2048 .bf16) (p : Fin 512) (q : Fin 2048) :
    k0_pay1 v0 v2 (ix2 p q) = Ideal.sign (∑ k : Fin 2048, v0 (ix2 p k) * v2 (ix2 q k)) := by
  rw [stored_eq_sign, shapeCast_self]
  exact congrArg Ideal.sign (product_apply _ _ p q)

end Cert.KernelIdeal.BlockValue

end
-- ==== Proof.ArrayValue.lean ====
/-
  The kernel's result array, as one function of the argument arrays.

  The grid has 16 points. At point `t` the body sees rows `512·t … 512·t + 511` of the activations (all 2048 columns)
  and the whole table of signed weights — the same table at every point, filled by the host before the region with the
  sign of each weight — and writes back rows `512·t … 512·t + 511` of the result. Entry `(p, q)` of what it stores is
  `sign (∑ k, a[p, k] · s[q, k])` of its two blocks (`BlockValue.stored_apply`), which is entry `(512·t + p, q)` of the
  layer of the argument arrays. The 16 row bands tile the result array, so after the run it holds the layer everywhere.
-/
import proofs.«170826_j6493990552022_2_alg».proof.Proof.Gen.KernelIdeal.Value
import proofs.«170826_j6493990552022_2_alg».proof.Proof.BlockValue
import proofs.«170826_j6493990552022_2_alg».proof.Proof.BinarizedLinear
import Idealize.ShloMosaic.Lib.StableHlo.Run

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The table of signed weights the region finds -/

/-- The host fills the table before the region: the sign of every weight (narrowed to sixteen bits, which changes
    nothing on the extended reals). -/
theorem table_eq (c : Dev nD) :
    (V m c main_v1 : S2048x2048.Idx → EReal)
      = (truncf (F := Ideal) .bf16 (Host.sign (F := Ideal) (m ((c : Thread nD τ).loc main_arg1) : FVec Ideal S2048x2048 .f32))
          bitsLt_bf16_f32 : FVec Ideal S2048x2048 .bf16) := by
  dsimp only [Gen.V, Gen.hostOps0]; after_results

/-- Read at an entry: the sign of that weight. -/
theorem table_apply (c : Dev nD) (i : S2048x2048.Idx) :
    V m c main_v1 i = Ideal.sign (m ((c : Thread nD τ).loc main_arg1) i) := by
  rw [table_eq]; rfl

/-! ## The index maps over the grid -/

theorem origin : (![0, 0] : Fin 2 → Nat) = fun _ => 0 := funext fun a => by fin_cases a <;> rfl

/-- The activations' window and the result's window move together down the rows and stay at column block 0; the table's
    window never moves. Decided over the 16 points. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 16 row bands is some point's. -/
theorem band_onto : ∀ r : Fin 16, ∃ t : Fin cfg0.N, win0_2.index t = ![r.val, 0] :=
  (by decide +kernel : ∀ r : Fin 16, ∃ t : Fin grid0.N, win0_2.index t = ![r.val, 0])

/-! ## What a point writes back -/

/-- Entry `(p, k)` of the activations' block at point `t` is the activations' entry in the row where the result's block
    puts its row `p`, column `k`. -/
theorem act_block (c : Dev nD) (t : Fin cfg0.N) (p : Fin 512) (q k : Fin 2048) :
    iblk m c 0 t (ix2 p k)
      = m ((c : Thread nD τ).loc main_arg0) (ix2 ((((cfg0.win 2).blk t).view.emb (ix2 p q)) 0 : Fin 8192) k) := by
  obtain ⟨e0, e1, -, -, -⟩ := index_facts t
  show V m c main_arg0 (((cfg0.win 0).blk t).view.emb (ix2 p k)) = _
  rw [V_main_arg0]
  refine congrArg _ (funext fun d => Fin.ext ?_)
  match d with
  | ⟨0, _⟩ => show win0_0.index t (0 : Fin 2) * 512 + 1 * p.val = win0_2.index t (0 : Fin 2) * 512 + 1 * p.val; omega
  | ⟨1, _⟩ => show win0_0.index t (1 : Fin 2) * 2048 + 1 * k.val = k.val; omega

/-- Entry `(q, k)` of the table's block at any point is the sign of weight `(q, k)`, where `q` is the column the
    result's block puts its column `q` in. -/
theorem table_block (c : Dev nD) (t : Fin cfg0.N) (p : Fin 512) (q k : Fin 2048) :
    iblk m c 1 t (ix2 q k)
      = Ideal.sign (m ((c : Thread nD τ).loc main_arg1) (ix2 ((((cfg0.win 2).blk t).view.emb (ix2 p q)) 1 : Fin 2048) k)) := by
  obtain ⟨-, -, e2, e3, e4⟩ := index_facts t
  show V m c main_v1 (((cfg0.win 1).blk t).view.emb (ix2 q k)) = _
  rw [table_apply]
  refine congrArg (fun i => Ideal.sign (m ((c : Thread nD τ).loc main_arg1) i)) (funext fun d => Fin.ext ?_)
  match d with
  | ⟨0, _⟩ => show win0_1.index t (0 : Fin 2) * 2048 + 1 * q.val = win0_2.index t (1 : Fin 2) * 2048 + 1 * q.val; omega
  | ⟨1, _⟩ => show win0_1.index t (1 : Fin 2) * 2048 + 1 * k.val = k.val; omega

/-- WHAT POINT `t` WRITES BACK is its row band of the layer of the argument arrays. -/
theorem flushed_eq (c : Dev nD) (t : Fin cfg0.N) :
    (dats m 0 c).flushed 2 t = ((cfg0.win 2).blk t).view.read (Elt Ideal)
      (Cert.BinarizedLinear.layer (m ((c : Thread nD τ).loc main_arg0)) (m ((c : Thread nD τ).loc main_arg1))) := by
  rw [Value.flushed2]
  unfold out0_2
  rw [View.canon_unit_zero origin]
  simp only [View.ld_unit_zero (S := S512x2048) origin, View.ld_unit_zero (S := S2048x2048) origin]
  funext j
  obtain ⟨p, q, rfl⟩ : ∃ (p : Fin 512) (q : Fin 2048), j = ix2 p q := ⟨j 0, j 1, eq_ix2 j⟩
  show k0_pay1 (iblk m c 0 t) (iblk m c 1 t) (ix2 p q)
    = Cert.BinarizedLinear.layer _ _ (((cfg0.win 2).blk t).view.emb (ix2 p q))
  refine (BlockValue.stored_apply _ _ p q).trans ?_
  refine congrArg Ideal.sign (Finset.sum_congr rfl fun k _ => ?_)
  rw [act_block m c t p q k, table_block m c t p q k]

/-! ## The row bands tile the result -/

/-- An index of the result is in point `t`'s band iff each coordinate is in the band's range on its axis. -/
theorem mem_band (t : Fin cfg0.N) (i : S8192x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Row `r` of the result lies in band `r / 512`, whose point writes it back. -/
theorem covered (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := band_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- THE RESULT ARRAY after the run is the layer of the argument arrays. -/
theorem final (c : Dev nD) :
    (dats m 0 c).arrAt 2 cfg0.N
      = Cert.BinarizedLinear.layer (m ((c : Thread nD τ).loc main_arg0)) (m ((c : Thread nD τ).loc main_arg1)) :=
  (dats m 0 c).arrAt_eq_of_cover 2 _ (fun t _ => flushed_eq m c t) covered

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v2)
        = Cert.BinarizedLinear.layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  The binarized linear layer: the kernel against its reference, over the extended reals.

  Both programs compute, for activations `x` (8192 × 2048) and weights `w` (2048 × 2048),
      out[b, o] = sign (∑ k, x[b, k] · sign w[o, k])
  (`Cert.BinarizedLinear.layer`). The kernel signs the weights once on the host, keeps that table resident, and for each
  of 16 bands of 512 rows multiplies the band of activations with the table and stores the entrywise sign of the
  product; the reference signs the weights, takes the whole product, and signs it. Narrowing to sixteen bits is the
  identity on the extended reals, the kernel's "±1 by the sign bit where nonzero, else the value" is the order's sign,
  and the two sums have the same terms in the same order, so the inputs' finiteness is never used.

    frame_Kernel, frame_KernelIdeal   — the generated frame certificates.
    frame_ReferenceIdeal              — the reference's generated run, its result dropped.
    preserves_Kernel_KernelIdeal      — the one rewrite of the idealization, "1.0 carrying v's sign bit" as
                                        "−1 where v < 0, else 1", at the body's 512 × 2048 block.
    algebraic_KernelIdeal_ReferenceIdeal — the kernel's result array is the layer of its arguments
                                        (`ArrayValue.run`), the reference's result is the layer of its arguments
                                        (`RefValue.result_eq`), and the arguments agree.
-/
import proofs.«170826_j6493990552022_2_alg».proof.Defs
import proofs.«170826_j6493990552022_2_alg».proof.Proof.Gen.Kernel
import proofs.«170826_j6493990552022_2_alg».proof.Proof.Gen.Kernel.Skeleton
import proofs.«170826_j6493990552022_2_alg».proof.Proof.Gen.Kernel.Launch
import proofs.«170826_j6493990552022_2_alg».proof.Proof.Gen.Kernel.Points
import proofs.«170826_j6493990552022_2_alg».proof.Proof.Gen.Kernel.Frame
import proofs.«170826_j6493990552022_2_alg».proof.Proof.Gen.KernelIdeal
import proofs.«170826_j6493990552022_2_alg».proof.Proof.Gen.KernelIdeal.Skeleton
import proofs.«170826_j6493990552022_2_alg».proof.Proof.Gen.KernelIdeal.Launch
import proofs.«170826_j6493990552022_2_alg».proof.Proof.Gen.KernelIdeal.Points
import proofs.«170826_j6493990552022_2_alg».proof.Proof.Gen.KernelIdeal.Frame
import proofs.«170826_j6493990552022_2_alg».proof.Proof.Gen.ReferenceIdeal
import proofs.«170826_j6493990552022_2_alg».proof.Proof.Gen.Pre_finite_inputs
import proofs.«170826_j6493990552022_2_alg».proof.Proof.Gen.KernelIdeal.Value
import proofs.«170826_j6493990552022_2_alg».proof.Proof.Gen.ReferenceIdeal.Run
import proofs.«170826_j6493990552022_2_alg».proof.Proof.Gen.ReferenceIdeal.Read
import proofs.«170826_j6493990552022_2_alg».proof.Proof.BinarizedLinear
import proofs.«170826_j6493990552022_2_alg».proof.Proof.ReferenceValue
import proofs.«170826_j6493990552022_2_alg».proof.Proof.ArrayValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite, at the body's block shape and at 32-bit floats. -/
theorem preserves : Cert.preserves_Kernel_KernelIdeal :=
  IdealRules.sign_bit.statement Cert.KernelIdeal.S512x2048 .f32

/-- Both runs end with the result at the layer of the kernel's argument arrays: the kernel's by its array value, the
    reference's by its result term read at the agreeing arguments. -/
theorem algebraic : Cert.algebraic_KernelIdeal_ReferenceIdeal := by
  intro m ρ m' ρ' _ hagree
  refine ⟨fun c => Cert.BinarizedLinear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
